-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S2048x64 : Shape := ⟨2, ![2048, 64]⟩
abbrev S1024x64 : Shape := ⟨2, ![1024, 64]⟩
abbrev S2048x1024 : Shape := ⟨2, ![2048, 1024]⟩

abbrev nBuf : Space → Nat
  | .hbm => 23
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x64, .f32⟩
  | .hbm, ⟨21, _⟩ => ⟨S8192x64, .f32⟩
  | .hbm, ⟨22, _⟩ => ⟨S8192x8192, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S1024x64, .f32⟩
  | .local _ .vmem, ⟨4, _⟩ => ⟨S2048x1024, .f32⟩
  | .local _ .vmem, ⟨5, _⟩ => ⟨S2048x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x1024_S2048x1024_0_0 : ∀ a, (![0, 0] : Fin 2 → Nat) a + S2048x1024.size a ≤ S2048x1024.size a
  h_S2048x1024 : 0 < S2048x1024.numel
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x8192.size a
  hwx0_2 : ∀ i : grid0.Coords, EltTy.bits .f32 = 32 ∨ (Rect.block (s := S8192x8192) S2048x1024.size (cc0_transform_2 i) (hinb0_2 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_v7) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x64, .f32⟩
  | .hbm, ⟨21, _⟩ => ⟨S8192x64, .f32⟩
  | .hbm, ⟨22, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.BlockProduct.lean ====
/-
  One tile of the product, read entry by entry.

  At a grid point the kernel body holds a slab of 2048 rows of the left matrix and a slab of 1024 rows of
  the right matrix, each row 64 long, and forms their product contracting the row coordinate of both: a
  2048 × 1024 tile, accumulated into zero. Over the extended reals the entry `(p, q)` of that tile is the sum
  over `k` of `left[p, k] · right[q, k]`: the accumulator's zero is the neutral element of the sum, and the
  one contracted axis is indexed by its single coordinate `k`.
-/
import proofs.«120124_j3049426780789_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx

/-- The left operand's row coordinate at output entry `j` is the entry's row. -/
theorem left_row (j : S2048x1024.Idx) (q : dot_S2048x64_S1024x64_S2048x1024_1_1_0_0_n_n.contr.Idx) :
    (dot_S2048x64_S1024x64_S2048x1024_1_1_0_0_n_n.lhsIdx j q 0).val = (j 0).val := by
  unfold DotDims.lhsIdx
  rw [dif_neg (show ¬(0 : Fin S2048x64.rank) ∈ dot_S2048x64_S1024x64_S2048x1024_1_1_0_0_n_n.lhsBatch by decide),
    dif_pos (show (0 : Fin S2048x64.rank) ∈ dot_S2048x64_S1024x64_S2048x1024_1_1_0_0_n_n.lhsNonContracting by decide)]
  rfl

/-- The left operand's second coordinate is the contracted one. -/
theorem left_col (j : S2048x1024.Idx) (q : dot_S2048x64_S1024x64_S2048x1024_1_1_0_0_n_n.contr.Idx) :
    (dot_S2048x64_S1024x64_S2048x1024_1_1_0_0_n_n.lhsIdx j q 1).val = (q ⟨0, by decide⟩).val :=
  dot_S2048x64_S1024x64_S2048x1024_1_1_0_0_n_n.lhsIdx_val_of_single rfl j q

/-- The right operand's row coordinate at output entry `j` is the entry's column. -/
theorem right_row (j : S2048x1024.Idx) (q : dot_S2048x64_S1024x64_S2048x1024_1_1_0_0_n_n.contr.Idx) :
    (dot_S2048x64_S1024x64_S2048x1024_1_1_0_0_n_n.rhsIdx j q 0).val = (j 1).val := by
  unfold DotDims.rhsIdx
  rw [dif_neg (show ¬(0 : Fin S1024x64.rank) ∈ dot_S2048x64_S1024x64_S2048x1024_1_1_0_0_n_n.rhsBatch by decide),
    dif_pos (show (0 : Fin S1024x64.rank) ∈ dot_S2048x64_S1024x64_S2048x1024_1_1_0_0_n_n.rhsNonContracting by decide)]
  rfl

/-- The right operand's second coordinate is the contracted one. -/
theorem right_col (j : S2048x1024.Idx) (q : dot_S2048x64_S1024x64_S2048x1024_1_1_0_0_n_n.contr.Idx) :
    (dot_S2048x64_S1024x64_S2048x1024_1_1_0_0_n_n.rhsIdx j q 1).val = (q ⟨0, by decide⟩).val :=
  dot_S2048x64_S1024x64_S2048x1024_1_1_0_0_n_n.rhsIdx_val_of_single rfl j q

/-- Entry `j = (p, q)` of the tile the body stores: the inner product of row `p` of the left slab with row `q`
    of the right slab. The two casts of a slab to its own shape change nothing; the product into a zero
    accumulator is the bare sum over the contracted axis, re-indexed by that axis's one coordinate. -/
theorem tile_apply (x0 : Vec Ideal S2048x64 .f32) (x1 : Vec Ideal S1024x64 .f32) (j : S2048x1024.Idx) :
    k0_pay1 (F := Ideal) x0 x1 j
      = ∑ k : Fin 64, x0 (ix2 (j 0 : Fin 2048) k) * x1 (ix2 (j 1 : Fin 1024) k) := by
  unfold k0_pay1
  rw [shapeCast_self, shapeCast_self]
  show FloatOps.matmul dot_S2048x64_S1024x64_S2048x1024_1_1_0_0_n_n none x0 x1
      (constant (F := Ideal) S2048x1024 .f32 0x00000000#32) j = _
  rw [Ideal.matmul_constant_zero_apply,
    ← Equiv.sum_comp (contrEquiv1 dot_S2048x64_S1024x64_S2048x1024_1_1_0_0_n_n 64 rfl rfl).symm]
  refine Finset.sum_congr rfl fun k _ => ?_
  have hk := contrEquiv1_symm_val dot_S2048x64_S1024x64_S2048x1024_1_1_0_0_n_n 64 rfl rfl k
  have el : dot_S2048x64_S1024x64_S2048x1024_1_1_0_0_n_n.lhsIdx j
      ((contrEquiv1 dot_S2048x64_S1024x64_S2048x1024_1_1_0_0_n_n 64 rfl rfl).symm k) = ix2 (j 0 : Fin 2048) k :=
    funext fun a => Fin.ext (by
      match a with
      | ⟨0, _⟩ => exact left_row _ _
      | ⟨1, _⟩ => exact (left_col _ _).trans hk)
  have er : dot_S2048x64_S1024x64_S2048x1024_1_1_0_0_n_n.rhsIdx j
      ((contrEquiv1 dot_S2048x64_S1024x64_S2048x1024_1_1_0_0_n_n 64 rfl rfl).symm k) = ix2 (j 1 : Fin 1024) k :=
    funext fun a => Fin.ext (by
      match a with
      | ⟨0, _⟩ => exact right_row _ _
      | ⟨1, _⟩ => exact (right_col _ _).trans hk)
  rw [el, er]
  rfl

end Cert.KernelIdeal.BlockProduct

end
-- ==== Proof.UnitRows.lean ====
/-
  The rows scaled to unit length, and that the kernel's two operand arrays hold them.

  Before the tiled product is launched the host scales every row of each argument: the row's sum of squares
  (from zero), its square root, the larger of that and the small positive constant that guards a zero row,
  and the row divided entry by entry by the result. `unitRows x` is that composition as ONE function of the
  argument array `x`; it is never opened in this proof, because the reference applies the very same
  operations to the same argument, so the two sides meet at `unitRows` itself.

  When the launch begins, the left operand's array holds `unitRows` of the first argument and the right
  operand's array holds `unitRows` of the second: each is read off the host operations that ran before the
  launch.
-/
import proofs.«120124_j3049426780789_2_alg».proof.Proof.Gen.KernelIdeal.Frame
import Idealize.ShloMosaic.Lib.StableHlo.Run

noncomputable section

namespace Cert.KernelIdeal.UnitRows

open Cert.KernelIdeal Cert.KernelIdeal.Gen Idealize.ShloMosaic Idealize.ShloMosaic.TcCoe Idealize.SL.Sem
open Idealize.ShloMosaic.StableHlo

variable {F : FTy → Type} [FloatOps F]

/-- Every row of `x` divided by the larger of its Euclidean length and the guard constant. -/
def unitRows (x : (⟨S8192x64, .f32⟩ : BufTy).Contents (Elt F)) : (⟨S8192x64, .f32⟩ : BufTy).Contents (Elt F) :=
  Host.divf x (broadcastInDim S8192x64 ![0, 1] bcast_S8192x1_S8192x64_0_1
    (maximumf (Host.sqrt (broadcastInDim S8192x1 ![0] bcast_S8192_S8192x1_0
        (Host.reduceAdd (mulf x x) (constant S_ .f32 0x00000000#32) reducesTo_S8192x64_S8192_d1 h_S_)))
      (broadcastInDim S8192x1 ![] bcast_S_S8192x1 (constant S_ .f32 0x322BCC77#32))))

variable (m : (ℓ : Loc nD τ sig) → Buf (Elt F) ℓ)

/-- At the launch the left operand's array is the first argument with its rows scaled. -/
theorem left_operand (c : Dev nD) :
    (V m c main_v7 : S8192x64.Idx → Elt F .f32) = unitRows (F := F) (m ((c : Thread nD τ).loc main_arg0)) := by
  dsimp only [Gen.V, Gen.hostOps0]
  after_results
  rfl

/-- At the launch the right operand's array is the second argument with its rows scaled. -/
theorem right_operand (c : Dev nD) :
    (V m c main_v15 : S8192x64.Idx → Elt F .f32) = unitRows (F := F) (m ((c : Thread nD τ).loc main_arg1)) := by
  dsimp only [Gen.V, Gen.hostOps0]
  after_results
  rfl

end Cert.KernelIdeal.UnitRows

end
-- ==== Proof.Gram.lean ====
/-
  The matrix of inner products of two families of row vectors, over the extended reals.

  `X` and `Y` each hold 8192 rows of 64 entries. Entry `(r, s)` of `gram X Y` is the sum over the 64
  coordinates `k` of `X[r, k] · Y[s, k]`: row `r` of `X` against row `s` of `Y`. When the rows have been
  scaled to unit length this is the cosine of the angle between the two rows. Nothing here needs the entries
  to be finite: a finite sum of products is defined on all of the extended reals, and the two programs
  compared against this function form exactly this sum, each in its own arrangement.
-/
import Idealize.ShloMosaic.PureOps.Ideal
import Idealize.ShloMosaic.Lib.ValueIdx

noncomputable section

namespace Cert.Gram

open Idealize.ShloMosaic Idealize.ShloMosaic.ValueIdx

/-- Entry `(r, s)`: the inner product of row `r` of `X` with row `s` of `Y`, a sum of 64 products. -/
def gram (X Y : (⟨2, ![8192, 64]⟩ : Shape).Idx → EReal) : (⟨2, ![8192, 8192]⟩ : Shape).Idx → EReal :=
  fun i => ∑ k : Fin 64, X (ix2 (i 0 : Fin 8192) k) * Y (ix2 (i 1 : Fin 8192) k)

theorem gram_apply (X Y : (⟨2, ![8192, 64]⟩ : Shape).Idx → EReal) (i : (⟨2, ![8192, 8192]⟩ : Shape).Idx) :
    gram X Y i = ∑ k : Fin 64, X (ix2 (i 0 : Fin 8192) k) * Y (ix2 (i 1 : Fin 8192) k) := rfl

end Cert.Gram

end
-- ==== Proof.Tiles.lean ====
/-
  From the tiles to the whole matrix.

  The grid has 4 × 8 points. Point `(a, b)` reads rows `2048·a … 2048·a + 2047` of the left operand and rows
  `1024·b … 1024·b + 1023` of the right operand (all 64 columns of each), and writes back the 2048 × 1024 tile of
  the result whose corner is `(2048·a, 1024·b)`. Entry `(p, q)` of that tile is the inner product of left row
  `2048·a + p` with right row `1024·b + q` — which is entry `(2048·a + p, 1024·b + q)` of the matrix of inner
  products of the two operands. So every point writes the restriction of ONE whole-array function, `gram` of
  the two operand arrays, to its tile. The 32 tiles cover the 8192 × 8192 result (entry `(r, s)` lies in the tile
  of point `(r / 2048, s / 1024)`), hence after the run the result array is `gram` of the operands; and the
  operands are the arguments with their rows scaled to unit length.
-/
import proofs.«120124_j3049426780789_2_alg».proof.Proof.Gen.KernelIdeal.Value
import proofs.«120124_j3049426780789_2_alg».proof.Proof.BlockProduct
import proofs.«120124_j3049426780789_2_alg».proof.Proof.UnitRows
import proofs.«120124_j3049426780789_2_alg».proof.Proof.Gram

noncomputable section

namespace Cert.KernelIdeal.Tiles

open Cert.KernelIdeal Cert.KernelIdeal.Gen Idealize.ShloMosaic Idealize.ShloMosaic.TcCoe Idealize.SL.Sem
open Idealize.ShloMosaic.ValueIdx Cert.Gram Cert.KernelIdeal.UnitRows
open Idealize.ShloMosaic.Pipeline (Dat)

variable (m : (ℓ : Loc nD τ sig) → Buf (Elt Ideal) ℓ) (ρ : Dev nD → PrngReg)

/-- The body's loads and its store start at the corner of their buffers. -/
theorem corner : (![0, 0] : Fin 2 → Nat) = fun _ => 0 := funext fun a => by fin_cases a <;> rfl

/-- At every grid point the left slab's row block is the tile's row block, the right slab's row block is the
    tile's column block, and both slabs take all 64 columns (column block 0). Decided over the 32 points. -/
theorem slab_blocks : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0 :=
  (by decide +kernel : ∀ t : Fin grid0.N, _)

/-- Every one of the 4 × 8 tiles is some grid point's. -/
theorem every_tile : ∀ (a : Fin 4) (b : Fin 8), ∃ t : Fin cfg0.N, win0_2.index t = ![a.val, b.val] :=
  (by decide +kernel : ∀ (a : Fin 4) (b : Fin 8), ∃ t : Fin grid0.N, win0_2.index t = ![a.val, b.val])

/-- What point `t` writes back is the restriction to its tile of `gram` of the two operand arrays. -/
theorem written_tile (c : Dev nD) (t : Fin cfg0.N) :
    (dats m 0 c).flushed 2 t
      = ((cfg0.win 2).blk t).view.read (Elt Ideal) (gram (V m c main_v7) (V m c main_v15)) := by
  show (cfg0.win 2).cut (grid0.coords t) ((dats m 0 c).after 2 t) = _
  rw [after0_2]
  unfold out0_2
  rw [View.canon_unit_zero corner]
  simp only [View.ld_unit_zero (S := S2048x64) corner, View.ld_unit_zero (S := S1024x64) corner]
  obtain ⟨e0, e1, e2, e3⟩ := slab_blocks t
  funext j
  show k0_pay1 (F := Ideal) (iblk m c 0 t) (iblk m c 1 t) j
    = gram (V m c main_v7) (V m c main_v15) (((cfg0.win 2).blk t).view.emb j)
  refine (BlockProduct.tile_apply (iblk m c 0 t) (iblk m c 1 t) j).trans ?_
  rw [gram_apply]
  refine Finset.sum_congr rfl fun k _ => ?_
  have hj0 : (j 0).val < 2048 := (j 0).isLt
  have hj1 : (j 1).val < 1024 := (j 1).isLt
  have hl : iblk m c 0 t (ix2 (j 0 : Fin 2048) k)
      = V m c main_v7 (ix2 ((((cfg0.win 2).blk t).view.emb j) 0 : Fin 8192) k) := by
    show V m c main_v7 (((cfg0.win 0).blk t).view.emb (ix2 (j 0 : Fin 2048) k)) = _
    refine congrArg (V m c main_v7) (funext fun a => Fin.ext ?_)
    match a with
    | ⟨0, _⟩ =>
      show win0_0.index t (0 : Fin 2) * 2048 + 1 * (j 0).val = win0_2.index t (0 : Fin 2) * 2048 + 1 * (j 0).val
      omega
    | ⟨1, _⟩ =>
      show win0_0.index t (1 : Fin 2) * 64 + 1 * k.val = k.val
      omega
  have hr : iblk m c 1 t (ix2 (j 1 : Fin 1024) k)
      = V m c main_v15 (ix2 ((((cfg0.win 2).blk t).view.emb j) 1 : Fin 8192) k) := by
    show V m c main_v15 (((cfg0.win 1).blk t).view.emb (ix2 (j 1 : Fin 1024) k)) = _
    refine congrArg (V m c main_v15) (funext fun a => Fin.ext ?_)
    match a with
    | ⟨0, _⟩ =>
      show win0_1.index t (0 : Fin 2) * 1024 + 1 * (j 1).val = win0_2.index t (1 : Fin 2) * 1024 + 1 * (j 1).val
      omega
    | ⟨1, _⟩ =>
      show win0_1.index t (1 : Fin 2) * 64 + 1 * k.val = k.val
      omega
  rw [hl, hr]

/-- An entry of the result lies in point `t`'s tile iff each coordinate lies in the tile's range on its axis. -/
theorem mem_tile (t : Fin cfg0.N) (i : S8192x8192.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v16).slice (win0_2.rect t)).set ↔ _
  rw [View.set_slice_whole, Rect.mem_set_unit]
  exact Iff.rfl

/-- The tiles cover the result: entry `(r, s)` lies in the tile of the point at `(r / 2048, s / 1024)`. -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := every_tile ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_tile]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-- After the run the result array is `gram` of the two arguments with their rows scaled to unit length. -/
theorem whole_array (c : Dev nD) :
    (dats m 0 c).arrAt 2 cfg0.N
      = gram (unitRows (F := Ideal) (m ((c : Thread nD τ).loc main_arg0)))
          (unitRows (F := Ideal) (m ((c : Thread nD τ).loc main_arg1))) := by
  have h := (dats m 0 c).arrAt_eq_of_cover 2 (gram (V m c main_v7) (V m c main_v15))
    (fun t _ => written_tile m c t) tiles_cover
  rw [left_operand m c, right_operand m c] at h
  exact h

/-- The kernel's run with its result named: the matrix of inner products of the unit rows; arguments unchanged. -/
theorem run : θ_run defs (onTc (τ := τ) (main (F := Ideal))) ⟨m, fun _ => 0, ρ⟩ fun r => ∀ c : Dev nD,
      r.2.mem ((c : Thread nD τ).loc main_v16)
        = gram (unitRows (F := Ideal) (m ((c : Thread nD τ).loc main_arg0)))
            (unitRows (F := Ideal) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (whole_array m c), (h c).2⟩)
    (Cert.KernelIdeal.Value.run_blocks m ρ)

end Cert.KernelIdeal.Tiles

end
-- ==== Proof.RefGram.lean ====
/-
  The reference's last stage is the matrix of inner products of its two scaled operands.

  The reference ends with one product of the two 8192 × 64 arrays it has scaled, contracting the second
  coordinate of both. Read at entry `(r, s)` over the extended reals that product is the sum over `k` of
  `left[r, k] · right[s, k]` — the function `gram` of the two operands.
-/
import proofs.«120124_j3049426780789_2_alg».proof.Proof.Gen.ReferenceIdeal.Read
import proofs.«120124_j3049426780789_2_alg».proof.Proof.Gram

noncomputable section

namespace Cert.ReferenceIdeal.RefValue

open Cert.ReferenceIdeal Cert.ReferenceIdeal.Gen Cert.ReferenceIdeal.Read Idealize.ShloMosaic
open Idealize.ShloMosaic.ValueIdx Cert.Gram

/-- The left operand is read at row `r` of the entry, coordinate `k`. -/
theorem left_index (i : S8192x8192.Idx) (k : Fin 64) : lidx_main_v10 i k = ix2 (i 0 : Fin 8192) k :=
  funext fun a => Fin.ext (by match a with | ⟨0, _⟩ => rfl | ⟨1, _⟩ => rfl)

/-- The right operand is read at row `s` (the entry's column), coordinate `k`. -/
theorem right_index (i : S8192x8192.Idx) (k : Fin 64) : ridx_main_v10 i k = ix2 (i 1 : Fin 8192) k :=
  funext fun a => Fin.ext (by match a with | ⟨0, _⟩ => rfl | ⟨1, _⟩ => rfl)

/-- The reference's product stage, as a function of the two arguments, is `gram` of its two scaled operands. -/
theorem product_is_gram (x0 x1 : (⟨S8192x64, .f32⟩ : BufTy).Contents (Elt Ideal)) :
    val_main_v10 (F := Ideal) x0 x1 = gram (val_main_v4 (F := Ideal) x0) (val_main_v9 (F := Ideal) x1) := by
  funext i
  rw [val_main_v10_apply, gram_apply]
  refine Finset.sum_congr rfl fun k _ => ?_
  rw [left_index, right_index]
  rfl

end Cert.ReferenceIdeal.RefValue

end
-- ==== Proof.lean ====
/-
  Cosine similarity of every row of `A` with every row of `B` (each 8192 × 64): the kernel and the reference
  compute one function over the extended reals.

  Both programs first scale every row of each argument to unit length — the row divided by the larger of its
  Euclidean length and a small guard constant — with the same host operations and the same constant, so that
  step is one function, `unitRows`, on both sides and is never opened. They differ only in how the 8192 × 8192
  matrix of inner products of the scaled rows is formed. The reference forms it as ONE product contracting the
  64 columns. The kernel cuts it into 4 × 8 tiles of 2048 × 1024 entries; at each tile it multiplies a slab of
  2048 scaled rows of `A` by a slab of 1024 scaled rows of `B`, accumulating into zero. Entry `(r, s)` is on
  both sides the sum over the 64 columns `k` of `Â[r, k] · B̂[s, k]` (`gram`): the kernel's zero accumulator is
  the neutral element of that sum, each tile is the restriction of `gram` to its rectangle, and the tiles cover
  the matrix. No law of arithmetic beyond `0 + x = x` is used, so the finiteness of the inputs is never needed.

  The three frames are the programs' runs with the result dropped; the idealization rewrote nothing, so that
  conjunct is trivial.
-/
import proofs.«120124_j3049426780789_2_alg».proof.Defs
import proofs.«120124_j3049426780789_2_alg».proof.Proof.Gen.Kernel
import proofs.«120124_j3049426780789_2_alg».proof.Proof.Gen.Kernel.Skeleton
import proofs.«120124_j3049426780789_2_alg».proof.Proof.Gen.Kernel.Launch
import proofs.«120124_j3049426780789_2_alg».proof.Proof.Gen.Kernel.Points
import proofs.«120124_j3049426780789_2_alg».proof.Proof.Gen.Kernel.Frame
import proofs.«120124_j3049426780789_2_alg».proof.Proof.Gen.KernelIdeal
import proofs.«120124_j3049426780789_2_alg».proof.Proof.Gen.KernelIdeal.Skeleton
import proofs.«120124_j3049426780789_2_alg».proof.Proof.Gen.KernelIdeal.Launch
import proofs.«120124_j3049426780789_2_alg».proof.Proof.Gen.KernelIdeal.Points
import proofs.«120124_j3049426780789_2_alg».proof.Proof.Gen.KernelIdeal.Frame
import proofs.«120124_j3049426780789_2_alg».proof.Proof.Gen.ReferenceIdeal
import proofs.«120124_j3049426780789_2_alg».proof.Proof.Gen.Pre_finite_inputs
import proofs.«120124_j3049426780789_2_alg».proof.Proof.Gen.KernelIdeal.Value
import proofs.«120124_j3049426780789_2_alg».proof.Proof.Gen.ReferenceIdeal.Run
import proofs.«120124_j3049426780789_2_alg».proof.Proof.Gen.ReferenceIdeal.Read
import proofs.«120124_j3049426780789_2_alg».proof.Proof.Tiles
import proofs.«120124_j3049426780789_2_alg».proof.Proof.RefGram
import Idealize.ShloMosaic.Adequacy
import Idealize.ShloMosaic.Init

noncomputable section

namespace Cert.Proof

open Idealize.ShloMosaic Idealize.ShloMosaic.TcCoe Idealize.SL.Sem

/-- The reference scales the rows of its first argument by the same operations as the kernel's host part. -/
theorem same_scaling_left (x : (⟨Cert.ReferenceIdeal.S8192x64, .f32⟩ : BufTy).Contents (Elt Ideal)) :
    Cert.ReferenceIdeal.Read.val_main_v4 (F := Ideal) x = Cert.KernelIdeal.UnitRows.unitRows (F := Ideal) x := rfl

/-- And likewise the rows of its second argument. -/
theorem same_scaling_right (x : (⟨Cert.ReferenceIdeal.S8192x64, .f32⟩ : BufTy).Contents (Elt Ideal)) :
    Cert.ReferenceIdeal.Read.val_main_v9 (F := Ideal) x = Cert.KernelIdeal.UnitRows.unitRows (F := Ideal) x := rfl

theorem frame_kernel : Cert.frame_Kernel := fun m ρ _ => Cert.Kernel.Gen.frame m ρ

theorem frame_kernel_ideal : Cert.frame_KernelIdeal := fun m ρ _ => Cert.KernelIdeal.Gen.frame m ρ

/-- The reference has no launch: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the matrix of inner products of the unit rows. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.product_is_gram,
    same_scaling_left, same_scaling_right, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
